-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S2048x2048 : Shape := ⟨2, ![2048, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x8x128 : Shape := ⟨3, ![256, 8, 128]⟩
abbrev S256x8 : Shape := ⟨2, ![256, 8]⟩
abbrev S256x8x1 : Shape := ⟨3, ![256, 8, 1]⟩
abbrev S2048x128 : Shape := ⟨2, ![2048, 128]⟩
abbrev S256x1x128 : Shape := ⟨3, ![256, 1, 128]⟩
abbrev S256x128 : Shape := ⟨2, ![256, 128]⟩
abbrev S128x256 : Shape := ⟨2, ![128, 256]⟩
abbrev S2048x256 : Shape := ⟨2, ![2048, 256]⟩
abbrev S256x8x256 : Shape := ⟨3, ![256, 8, 256]⟩
abbrev S256x4x256 : Shape := ⟨3, ![256, 4, 256]⟩
abbrev S256x4 : Shape := ⟨2, ![256, 4]⟩
abbrev S256x4x1 : Shape := ⟨3, ![256, 4, 1]⟩
abbrev S1024x256 : Shape := ⟨2, ![1024, 256]⟩
abbrev S256x1x256 : Shape := ⟨3, ![256, 1, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  shapeCasts_S256x1024_S256x8x128 : S256x1024.ShapeCasts S256x8x128
  reduces_S256x8x128_S256x8 : S256x8x128.Reduces [2] S256x8
  shapeCasts_S256x8_S256x8x1 : S256x8.ShapeCasts S256x8x1
  broadcasts_S256x8x1_S256x8x128 : S256x8x1.Broadcasts S256x8x128
  shapeCasts_S256x8x128_S2048x128 : S256x8x128.ShapeCasts S2048x128
  bitsLt_bf16_f32 : FTy.bits .bf16 < FTy.bits .f32
  slices_S256x8x128_o0_0_0_S256x1x128 : S256x8x128.Slices ![0, 0, 0] S256x1x128
  shapeCasts_S256x1x128_S256x128 : S256x1x128.ShapeCasts S256x128
  transposes_S256x128_p1_0_S128x256 : S256x128.Transposes [1, 0] S128x256
  shapeCasts_S2048x256_S256x8x256 : S2048x256.ShapeCasts S256x8x256
  reduces_S256x8x256_S256x256 : S256x8x256.Reduces [1] S256x256
  slices_S256x8x128_o0_1_0_S256x1x128 : S256x8x128.Slices ![0, 1, 0] S256x1x128
  slices_S256x8x128_o0_2_0_S256x1x128 : S256x8x128.Slices ![0, 2, 0] S256x1x128
  slices_S256x8x128_o0_3_0_S256x1x128 : S256x8x128.Slices ![0, 3, 0] S256x1x128
  slices_S256x8x128_o0_4_0_S256x1x128 : S256x8x128.Slices ![0, 4, 0] S256x1x128
  slices_S256x8x128_o0_5_0_S256x1x128 : S256x8x128.Slices ![0, 5, 0] S256x1x128
  slices_S256x8x128_o0_6_0_S256x1x128 : S256x8x128.Slices ![0, 6, 0] S256x1x128
  slices_S256x8x128_o0_7_0_S256x1x128 : S256x8x128.Slices ![0, 7, 0] S256x1x128
  shapeCasts_S256x1024_S256x4x256 : S256x1024.ShapeCasts S256x4x256
  reduces_S256x4x256_S256x4 : S256x4x256.Reduces [2] S256x4
  shapeCasts_S256x4_S256x4x1 : S256x4.ShapeCasts S256x4x1
  broadcasts_S256x4x1_S256x4x256 : S256x4x1.Broadcasts S256x4x256
  shapeCasts_S256x4x256_S1024x256 : S256x4x256.ShapeCasts S1024x256
  slices_S256x4x256_o0_0_0_S256x1x256 : S256x4x256.Slices ![0, 0, 0] S256x1x256
  shapeCasts_S256x1x256_S256x256 : S256x1x256.ShapeCasts S256x256
  transposes_S256x256_p1_0_S256x256 : S256x256.Transposes [1, 0] S256x256
  shapeCasts_S1024x256_S256x4x256 : S1024x256.ShapeCasts S256x4x256
  reduces_S256x4x256_S256x256 : S256x4x256.Reduces [1] S256x256
  slices_S256x4x256_o0_1_0_S256x1x256 : S256x4x256.Slices ![0, 1, 0] S256x1x256
  slices_S256x4x256_o0_2_0_S256x1x256 : S256x4x256.Slices ![0, 2, 0] S256x1x256
  slices_S256x4x256_o0_3_0_S256x1x256 : S256x4x256.Slices ![0, 3, 0] S256x1x256
  inb_S256x256_S256x256_0_0 : ∀ a, (![0, 0] : Fin 2 → Nat) a + S256x256.size a ≤ S256x256.size a
  h_S256x256 : 0 < S256x256.numel
  dot_S2048x128_S128x256_S2048x256_1_0_0_1_n_n_wf : DotDims.WF S2048x128 S128x256 S2048x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x8x128 : Shape := ⟨3, ![2048, 8, 128]⟩
abbrev S2048x8 : Shape := ⟨2, ![2048, 8]⟩
abbrev S2048x8x1 : Shape := ⟨3, ![2048, 8, 1]⟩
abbrev S2048x8x2048x8 : Shape := ⟨4, ![2048, 8, 2048, 8]⟩
abbrev S2048x2048x8x8 : Shape := ⟨4, ![2048, 2048, 8, 8]⟩
abbrev S2048x2048x8 : Shape := ⟨3, ![2048, 2048, 8]⟩
abbrev S2048x4x256 : Shape := ⟨3, ![2048, 4, 256]⟩
abbrev S2048x4 : Shape := ⟨2, ![2048, 4]⟩
abbrev S2048x4x1 : Shape := ⟨3, ![2048, 4, 1]⟩
abbrev S2048x4x2048x4 : Shape := ⟨4, ![2048, 4, 2048, 4]⟩
abbrev S2048x2048x4x4 : Shape := ⟨4, ![2048, 2048, 4, 4]⟩
abbrev S2048x2048x4 : Shape := ⟨3, ![2048, 2048, 4]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x2048, .f32⟩
  | .hbm, ⟨14, _⟩ => ⟨S2048x8x128, .f32⟩
  | .hbm, ⟨15, _⟩ => ⟨S2048x8x128, .f32⟩
  | .hbm, ⟨16, _⟩ => ⟨S_, .f32⟩
  | .hbm, ⟨17, _⟩ => ⟨S2048x8, .f32⟩
  | .hbm, ⟨18, _⟩ => ⟨S2048x8x1, .f32⟩
  | .hbm, ⟨19, _⟩ => ⟨S2048x8x1, .f32⟩
  | .hbm, ⟨20, _⟩ => ⟨S_, .f32⟩
  | .hbm, ⟨21, _⟩ => ⟨S2048x8x1, .f32⟩
  | .hbm, ⟨22, _⟩ => ⟨S2048x8x1, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8, .f32⟩
  | .hbm, ⟨29, _⟩ => ⟨S2048x8x1, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x128, .f32⟩
  | .hbm, ⟨35, _⟩ => ⟨S2048x8x128, .f32⟩
  | .hbm, ⟨36, _⟩ => ⟨S2048x8x2048x8, .f32⟩
  | .hbm, ⟨37, _⟩ => ⟨S2048x2048x8x8, .f32⟩
  | .hbm, ⟨38, _⟩ => ⟨S_, .f32⟩
  | .hbm, ⟨39, _⟩ => ⟨S2048x2048x8, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x4x256, .f32⟩
  | .hbm, ⟨44, _⟩ => ⟨S2048x4x256, .f32⟩
  | .hbm, ⟨45, _⟩ => ⟨S_, .f32⟩
  | .hbm, ⟨46, _⟩ => ⟨S2048x4, .f32⟩
  | .hbm, ⟨47, _⟩ => ⟨S2048x4x1, .f32⟩
  | .hbm, ⟨48, _⟩ => ⟨S2048x4x1, .f32⟩
  | .hbm, ⟨49, _⟩ => ⟨S_, .f32⟩
  | .hbm, ⟨50, _⟩ => ⟨S2048x4x1, .f32⟩
  | .hbm, ⟨51, _⟩ => ⟨S2048x4x1, .f32⟩
  | .hbm, ⟨52, _⟩ => ⟨S2048x4x256, .f32⟩
  | .hbm, ⟨53, _⟩ => ⟨S2048x4x256, .f32⟩
  | .hbm, ⟨54, _⟩ => ⟨S2048x4x256, .f32⟩
  | .hbm, ⟨55, _⟩ => ⟨S2048x4x256, .f32⟩
  | .hbm, ⟨56, _⟩ => ⟨S_, .f32⟩
  | .hbm, ⟨57, _⟩ => ⟨S2048x4, .f32⟩
  | .hbm, ⟨58, _⟩ => ⟨S2048x4x1, .f32⟩
  | .hbm, ⟨59, _⟩ => ⟨S2048x4x1, .f32⟩
  | .hbm, ⟨60, _⟩ => ⟨S_, .f32⟩
  | .hbm, ⟨61, _⟩ => ⟨S2048x4x1, .f32⟩
  | .hbm, ⟨62, _⟩ => ⟨S2048x4x1, .f32⟩
  | .hbm, ⟨63, _⟩ => ⟨S2048x4x256, .f32⟩
  | .hbm, ⟨64, _⟩ => ⟨S2048x4x256, .f32⟩
  | .hbm, ⟨65, _⟩ => ⟨S2048x4x2048x4, .f32⟩
  | .hbm, ⟨66, _⟩ => ⟨S2048x2048x4x4, .f32⟩
  | .hbm, ⟨67, _⟩ => ⟨S_, .f32⟩
  | .hbm, ⟨68, _⟩ => ⟨S2048x2048x4, .f32⟩
  | .hbm, ⟨69, _⟩ => ⟨S_, .f32⟩
  | .hbm, ⟨70, _⟩ => ⟨S2048x2048, .f32⟩
  | .hbm, ⟨71, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x2048 : S_.BroadcastsInDim S2048x2048 (![] : Fin 0 → Fin S2048x2048.rank)
  shapeCasts_S2048x1024_S2048x8x128 : S2048x1024.ShapeCasts S2048x8x128
  reducesTo_S2048x8x128_S2048x8_d2 : S2048x8x128.ReducesTo [2] S2048x8
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S2048x8x1_S2048x8x128_0_1_2 : S2048x8x1.BroadcastsInDim S2048x8x128 (![0, 1, 2] : Fin 3 → Fin S2048x8x128.rank)
  transposes_S2048x8x2048x8_S2048x2048x8x8_2_0_3_1 : S2048x8x2048x8.Transposes [2, 0, 3, 1] S2048x2048x8x8
  reducesTo_S2048x2048x8x8_S2048x2048x8_d2 : S2048x2048x8x8.ReducesTo [2] S2048x2048x8
  reducesTo_S2048x2048x8_S2048x2048_d2 : S2048x2048x8.ReducesTo [2] S2048x2048
  shapeCasts_S2048x1024_S2048x4x256 : S2048x1024.ShapeCasts S2048x4x256
  reducesTo_S2048x4x256_S2048x4_d2 : S2048x4x256.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x256_0_1_2 : S2048x4x1.BroadcastsInDim S2048x4x256 (![0, 1, 2] : Fin 3 → Fin S2048x4x256.rank)
  transposes_S2048x4x2048x4_S2048x2048x4x4_2_0_3_1 : S2048x4x2048x4.Transposes [2, 0, 3, 1] S2048x2048x4x4
  reducesTo_S2048x2048x4x4_S2048x2048x4_d2 : S2048x2048x4x4.ReducesTo [2] S2048x2048x4
  reducesTo_S2048x2048x4_S2048x2048_d2 : S2048x2048x4.ReducesTo [2] S2048x2048
  dot_S2048x8x128_S2048x8x128_S2048x8x2048x8_2_2_01_01_n_n_wf : DotDims.WF S2048x8x128 S2048x8x128 S2048x8x2048x8 [2] [2] [0, 1] [0, 1] [] []
  dot_S2048x4x256_S2048x4x256_S2048x4x2048x4_2_2_01_01_n_n_wf : DotDims.WF S2048x4x256 S2048x4x256 S2048x4x2048x4 [2] [2] [0, 1] [0, 1] [] []

variable [Facts₀]

def dot_S2048x8x128_S2048x8x128_S2048x8x2048x8_2_2_01_01_n_n : DotDims S2048x8x128 S2048x8x128 S2048x8x2048x8 where
  lhsContracting := [2]
  rhsContracting := [2]
  lhsNonContracting := [0, 1]
  rhsNonContracting := [0, 1]
  lhsBatch := []
  rhsBatch := []
  wf := dot_S2048x8x128_S2048x8x128_S2048x8x2048x8_2_2_01_01_n_n_wf
def dot_S2048x4x256_S2048x4x256_S2048x4x2048x4_2_2_01_01_n_n : DotDims S2048x4x256 S2048x4x256 S2048x4x2048x4 where
  lhsContracting := [2]
  rhsContracting := [2]
  lhsNonContracting := [0, 1]
  rhsNonContracting := [0, 1]
  lhsBatch := []
  rhsBatch := []
  wf := dot_S2048x4x256_S2048x4x256_S2048x4x2048x4_2_2_01_01_n_n_wf

class Facts : Prop extends Facts₀ where

variable [Facts]
-- ==== Proof.Spec.lean ====
/-
  The similarity of an image row and a caption row, as ONE function of the two argument arrays over the extended reals.

  A row of 1024 numbers is cut into 8 blocks of 128 and, again, into 4 blocks of 256. Every family that is normalised is
  divided by its Euclidean norm plus a small constant. The caption row is normalised whole first; then, for each of the
  two cuts, every block of the image row and every block of the normalised caption row is normalised, the cosine of
  image block `v` and caption block `t` is the sum of their products, the cosines are maximised over the image blocks `v`
  (starting from -∞) and the maxima summed over the caption blocks `t`. The result is the sum of the two cuts' values.

  Nothing here is evaluated: the small constant and -∞ stay the float words the two programs share.
-/
import Idealize.ShloMosaic.PureOps.Ideal
import Idealize.ShloMosaic.Lib.ValueIdx

noncomputable section

open scoped BigOperators

namespace Cert.Sims

open Idealize.ShloMosaic Idealize.ShloMosaic.ValueIdx

/-- The small constant added to every norm: the f32 word nearest 1e-8, kept as its word. -/
abbrev eps : EReal := Ideal.ofBits .f32 0x322BCC77#32

/-- What every maximum starts from: the word of -∞. -/
abbrev bot : EReal := Ideal.ofBits .f32 0xFF800000#32

/-- The Euclidean norm of a finite family, plus `eps`. -/
def norm {κ : Type} [Fintype κ] (z : κ → EReal) : EReal := Ideal.sqrt (∑ k, z k * z k) + eps

/-- A finite family divided by its norm. -/
def unit {κ : Type} [Fintype κ] (z : κ → EReal) : κ → EReal := fun k => Ideal.div (z k) (norm z)

/-- Entry `c` of block `v` of a row cut into 8 blocks of 128. -/
def blk8 (x : Fin 1024 → EReal) (v : Fin 8) (c : Fin 128) : EReal :=
  x ⟨v.val * 128 + c.val, by have := v.isLt; have := c.isLt; omega⟩

/-- Entry `c` of block `v` of a row cut into 4 blocks of 256. -/
def blk4 (x : Fin 1024 → EReal) (v : Fin 4) (c : Fin 256) : EReal :=
  x ⟨v.val * 256 + c.val, by have := v.isLt; have := c.isLt; omega⟩

/-- The cosine of image block `v` and caption block `t` in the cut into 8 (the caption factor written first). -/
def cos8 (x y : Fin 1024 → EReal) (v t : Fin 8) : EReal :=
  ∑ c : Fin 128, unit (blk8 (unit y) t) c * unit (blk8 x v) c

/-- The cosine of image block `v` and caption block `t` in the cut into 4 (the caption factor written first). -/
def cos4 (x y : Fin 1024 → EReal) (v t : Fin 4) : EReal :=
  ∑ c : Fin 256, unit (blk4 (unit y) t) c * unit (blk4 x v) c

/-- The cut into 8: the maximum over image blocks, summed over caption blocks. -/
def pooled8 (x y : Fin 1024 → EReal) : EReal :=
  ∑ t : Fin 8, (Finset.univ : Finset (Fin 8)).fold max bot (fun v => cos8 x y v t)

/-- The cut into 4: the maximum over image blocks, summed over caption blocks. -/
def pooled4 (x y : Fin 1024 → EReal) : EReal :=
  ∑ t : Fin 4, (Finset.univ : Finset (Fin 4)).fold max bot (fun v => cos4 x y v t)

/-- The similarity of an image row `x` and a caption row `y`. -/
def sim (x y : Fin 1024 → EReal) : EReal := pooled8 x y + pooled4 x y

/-- The whole result: entry (a, b) is the similarity of image row `a` and caption row `b`. -/
def G (X Y : (⟨2, ![2048, 1024]⟩ : Shape).Idx → EReal) : (⟨2, ![2048, 2048]⟩ : Shape).Idx → EReal :=
  fun i => sim (fun d => X (ix2 (i 0) d)) (fun d => Y (ix2 (i 1) d))

end Cert.Sims

end
-- ==== Proof.RefNorms.lean ====
/-
  The three normalisations of the reference, read at explicit coordinates.

  Each is "a family divided by (the square root of the sum of its squares, plus the small constant)". The sums the
  reference forms start from the float word of zero, which is the number zero, so it drops out.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Sims.Ref

open Cert.ReferenceIdeal Cert.ReferenceIdeal.Read Idealize.ShloMosaic Idealize.ShloMosaic.ValueIdx

/-- The argument arrays: 2048 rows of 1024 extended reals. -/
abbrev Arr : Type := (⟨S2048x1024, .f32⟩ : BufTy).Contents (Elt Ideal)

/-- Row `b` of an array. -/
abbrev row (x : Arr) (b : Fin 2048) : Fin 1024 → EReal := fun d => x (ix2 b d)

/-- A family divided by its norm, written out. -/
theorem unit_apply {κ : Type} [Fintype κ] (z : κ → EReal) (k : κ) :
    unit z k = Ideal.div (z k) (Ideal.sqrt (∑ j, z j * z j) + eps) := rfl

/-- The caption array normalised row by row: entry `(b, d)` is entry `d` of row `b` divided by that row's norm. -/
theorem v7_eq (x1 : Arr) (b : Fin 2048) (d : Fin 1024) :
    val_main_v7 (F := Ideal) x1 (ix2 b d) = unit (row x1 b) d := by
  rw [val_main_v7_apply, val_main_v6_apply, val_main_v5_apply, val_main_v3_apply, val_main_v2_apply,
    val_main_v1_apply, val_main_v4_apply, val_main_cst_0_apply, val_main_cst_apply]
  simp only [Ideal.hostDivf_def, Ideal.addf_def, Ideal.hostUnary_sqrt_def, Ideal.ofBits_def,
    Ideal.ofBits_zero_f32, zero_add]
  unfold unit norm
  refine congrArg (fun s => Ideal.div (x1 (ix2 b d)) (Ideal.sqrt s + eps)) (Finset.sum_congr rfl fun k _ => ?_)
  rw [val_main_v0_apply, Ideal.mulf_def]
  have hk : idx_main_v1 (idx_main_v2 (idx_main_v6 (ix2 b d))) k = ix2 b k :=
    funext fun a => by match a with | ⟨0, _⟩ => rfl | ⟨1, _⟩ => rfl
  rw [hk]

end Cert.Sims.Ref

end
-- ==== Proof.RefNorms8.lean ====
/-
  The block normalisations of the cut into 8, read at explicit coordinates.

  Reshaping a row of 1024 into 8 blocks of 128 sends entry `(a, v, c)` to entry `(a, v * 128 + c)`: the row-major
  position `(a * 8 + v) * 128 + c` has quotient `a` and remainder `v * 128 + c` on division by 1024.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import proofs.«113746_j31164282700672_2_alg».proof.Proof.RefNorms

noncomputable section

open scoped BigOperators

namespace Cert.Sims.Ref

open Cert.ReferenceIdeal Cert.ReferenceIdeal.Read Idealize.ShloMosaic Idealize.ShloMosaic.ValueIdx

/-- Where entry `(a, v, c)` of the reshaped image array comes from. -/
theorem idx9_eq (a : Fin 2048) (v : Fin 8) (c : Fin 128) :
    idx_main_v9 (ix3 a v c) = ix2 a ⟨v.val * 128 + c.val, by have := v.isLt; have := c.isLt; omega⟩ := by
  have ha := a.isLt; have hv := v.isLt; have hc := c.isLt
  funext e
  match e with
  | ⟨0, _⟩ => exact Fin.ext (by show ((a.val * 8 + v.val) * 128 + c.val) / 1024 = a.val; omega)
  | ⟨1, _⟩ => exact Fin.ext (by show ((a.val * 8 + v.val) * 128 + c.val) % 1024 = v.val * 128 + c.val; omega)

/-- Where entry `(b, t, c)` of the reshaped normalised caption array comes from. -/
theorem idx18_eq (b : Fin 2048) (t : Fin 8) (c : Fin 128) :
    idx_main_v18 (ix3 b t c) = ix2 b ⟨t.val * 128 + c.val, by have := t.isLt; have := c.isLt; omega⟩ := by
  have hb := b.isLt; have ht := t.isLt; have hc := c.isLt
  funext e
  match e with
  | ⟨0, _⟩ => exact Fin.ext (by show ((b.val * 8 + t.val) * 128 + c.val) / 1024 = b.val; omega)
  | ⟨1, _⟩ => exact Fin.ext (by show ((b.val * 8 + t.val) * 128 + c.val) % 1024 = t.val * 128 + c.val; omega)

/-- The reshaped image array: entry `(a, v, c)` is entry `c` of block `v` of row `a`. -/
theorem v9_eq (x0 : Arr) (a : Fin 2048) (v : Fin 8) (c : Fin 128) :
    val_main_v9 (F := Ideal) x0 (ix3 a v c) = blk8 (row x0 a) v c := by
  rw [val_main_v9_apply, idx9_eq]; rfl

/-- The reshaped normalised caption array: entry `(b, t, c)` is entry `c` of block `t` of the normalised row `b`. -/
theorem v18_eq (x1 : Arr) (b : Fin 2048) (t : Fin 8) (c : Fin 128) :
    val_main_v18 (F := Ideal) x1 (ix3 b t c) = blk8 (unit (row x1 b)) t c := by
  rw [val_main_v18_apply, idx18_eq, v7_eq]; rfl

/-- The image blocks normalised: entry `(a, v, c)` is entry `c` of the normalised block `v` of row `a`. -/
theorem v17_eq (x0 : Arr) (a : Fin 2048) (v : Fin 8) (c : Fin 128) :
    val_main_v17 (F := Ideal) x0 (ix3 a v c) = unit (blk8 (row x0 a) v) c := by
  rw [val_main_v17_apply, val_main_v16_apply, val_main_v15_apply, val_main_v13_apply, val_main_v12_apply,
    val_main_v11_apply, val_main_v14_apply, val_main_cst_3_apply, val_main_cst_2_apply, v9_eq, unit_apply]
  simp only [Ideal.hostDivf_def, Ideal.addf_def, Ideal.hostUnary_sqrt_def, Ideal.ofBits_def,
    Ideal.ofBits_zero_f32, zero_add]
  refine congrArg (fun s => Ideal.div (blk8 (row x0 a) v c) (Ideal.sqrt s + eps)) (Finset.sum_congr rfl fun k _ => ?_)
  have hk : idx_main_v11 (idx_main_v12 (idx_main_v16 (ix3 a v c))) k = ix3 a v k :=
    funext fun e => by match e with | ⟨0, _⟩ => rfl | ⟨1, _⟩ => rfl | ⟨2, _⟩ => rfl
  rw [val_main_v10_apply, Ideal.mulf_def, hk, v9_eq]

/-- The caption blocks normalised: entry `(b, t, c)` is entry `c` of the normalised block `t` of the normalised row `b`. -/
theorem v26_eq (x1 : Arr) (b : Fin 2048) (t : Fin 8) (c : Fin 128) :
    val_main_v26 (F := Ideal) x1 (ix3 b t c) = unit (blk8 (unit (row x1 b)) t) c := by
  rw [val_main_v26_apply, val_main_v25_apply, val_main_v24_apply, val_main_v22_apply, val_main_v21_apply,
    val_main_v20_apply, val_main_v23_apply, val_main_cst_5_apply, val_main_cst_4_apply, v18_eq, unit_apply]
  simp only [Ideal.hostDivf_def, Ideal.addf_def, Ideal.hostUnary_sqrt_def, Ideal.ofBits_def,
    Ideal.ofBits_zero_f32, zero_add]
  refine congrArg (fun s => Ideal.div (blk8 (unit (row x1 b)) t c) (Ideal.sqrt s + eps))
    (Finset.sum_congr rfl fun k _ => ?_)
  have hk : idx_main_v20 (idx_main_v21 (idx_main_v25 (ix3 b t c))) k = ix3 b t k :=
    funext fun e => by match e with | ⟨0, _⟩ => rfl | ⟨1, _⟩ => rfl | ⟨2, _⟩ => rfl
  rw [val_main_v19_apply, Ideal.mulf_def, hk, v18_eq]

end Cert.Sims.Ref

end
-- ==== Proof.RefCut8.lean ====
/-
  The cut into 8: cosines, their maxima over the image blocks, and the sum of the maxima over the caption blocks.

  The contraction is formed with the caption blocks as left factor and laid out `[b, t, a, v]`; the transpose brings it
  to `[a, b, v, t]`. The maximum runs over `v` from the word of -∞, the sum over `t` from the word of zero.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import proofs.«113746_j31164282700672_2_alg».proof.Proof.RefNorms8

noncomputable section

open scoped BigOperators

namespace Cert.Sims.Ref

open Cert.ReferenceIdeal Cert.ReferenceIdeal.Gen Cert.ReferenceIdeal.Read Idealize.ShloMosaic Idealize.ShloMosaic.ValueIdx

/-- Entry `(a, b, v, t)` of the transposed contraction is the cosine of image block `v` of row `a` and caption block
    `t` of row `b`. -/
theorem v28_eq (x0 x1 : Arr) (a b : Fin 2048) (v t : Fin 8) :
    val_main_v28 (F := Ideal) x0 x1 (ix4 a b v t) = cos8 (row x0 a) (row x1 b) v t := by
  rw [val_main_v28_apply, val_main_v27_apply]
  unfold cos8
  refine Finset.sum_congr rfl fun k _ => ?_
  have hl : lidx_main_v27 (idx_main_v28 (ix4 a b v t)) k = ix3 b t k :=
    funext fun e => by match e with | ⟨0, _⟩ => rfl | ⟨1, _⟩ => rfl | ⟨2, _⟩ => rfl
  have hr : ridx_main_v27 (idx_main_v28 (ix4 a b v t)) k = ix3 a v k :=
    funext fun e => by match e with | ⟨0, _⟩ => rfl | ⟨1, _⟩ => rfl | ⟨2, _⟩ => rfl
  rw [hl, hr, v26_eq, v17_eq]

/-- The index `(a, b, t)` with the image-block coordinate `k` put back on the third axis. -/
theorem lift29_eq (h : S2048x2048x8x8.Reduces [2] S2048x2048x8) (a b : Fin 2048) (t : Fin 8)
    (k : Fin (S2048x2048x8x8.size 2)) :
    h.lift (ix3 a b t) k = ix4 a b (⟨k.val, k.isLt⟩ : Fin 8) t := by
  funext c; apply Fin.ext
  fin_cases c <;> rfl

/-- Entry `(a, b, t)` of the maximum-reduce is the maximum, from -∞, of the cosines over the image blocks. -/
theorem v29_eq (x0 x1 : Arr) (a b : Fin 2048) (t : Fin 8) :
    val_main_v29 (F := Ideal) x0 x1 (ix3 a b t)
      = (Finset.univ : Finset (Fin 8)).fold max bot (fun v => cos8 (row x0 a) (row x1 b) v t) := by
  have h : S2048x2048x8x8.Reduces [2] S2048x2048x8 := by decide
  unfold val_main_v29
  refine (Host.reduce_eq_fold_single (FloatOps.maximumf (F := Ideal) (φ := .f32)) (val_main_v28 (F := Ideal) x0 x1)
    (val_main_cst_6 (F := Ideal)) reducesTo_S2048x2048x8x8_S2048x2048x8_d2 h h_S_ (ix3 a b t)).trans ?_
  have hf : (val_main_v28 (F := Ideal) x0 x1 ∘ h.lift (ix3 a b t))
      = fun v : Fin 8 => cos8 (row x0 a) (row x1 b) v t :=
    funext fun k => by
      show val_main_v28 (F := Ideal) x0 x1 (h.lift (ix3 a b t) k) = _
      rw [lift29_eq h a b t k, v28_eq]
      rfl
  exact congrArg (fun f => Finset.fold max bot f (Finset.univ : Finset (Fin 8))) hf

/-- Entry `(a, b)` of the cut into 8 is the pooled value of image row `a` and caption row `b`. -/
theorem v31_eq (x0 x1 : Arr) (a b : Fin 2048) :
    val_main_v31 (F := Ideal) x0 x1 (ix2 a b) = pooled8 (row x0 a) (row x1 b) := by
  rw [val_main_v31_apply, val_main_v8_apply, val_main_cst_1_apply, val_main_v30_apply, val_main_cst_7_apply]
  simp only [Ideal.addf_def, Ideal.ofBits_def, Ideal.ofBits_zero_f32, zero_add]
  unfold pooled8
  refine Finset.sum_congr rfl fun k _ => ?_
  have hk : idx_main_v30 (ix2 a b) k = ix3 a b k :=
    funext fun e => by match e with | ⟨0, _⟩ => rfl | ⟨1, _⟩ => rfl | ⟨2, _⟩ => rfl
  rw [hk, v29_eq]

end Cert.Sims.Ref

end
-- ==== Proof.RefNorms4.lean ====
/-
  The block normalisations of the cut into 4, read at explicit coordinates.

  Reshaping a row of 1024 into 4 blocks of 256 sends entry `(a, v, c)` to entry `(a, v * 256 + c)`: the row-major
  position `(a * 4 + v) * 256 + c` has quotient `a` and remainder `v * 256 + c` on division by 1024.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import proofs.«113746_j31164282700672_2_alg».proof.Proof.RefNorms

noncomputable section

open scoped BigOperators

namespace Cert.Sims.Ref

open Cert.ReferenceIdeal Cert.ReferenceIdeal.Read Idealize.ShloMosaic Idealize.ShloMosaic.ValueIdx

/-- Where entry `(a, v, c)` of the reshaped image array comes from. -/
theorem idx32_eq (a : Fin 2048) (v : Fin 4) (c : Fin 256) :
    idx_main_v32 (ix3 a v c) = ix2 a ⟨v.val * 256 + c.val, by have := v.isLt; have := c.isLt; omega⟩ := by
  have ha := a.isLt; have hv := v.isLt; have hc := c.isLt
  funext e
  match e with
  | ⟨0, _⟩ => exact Fin.ext (by show ((a.val * 4 + v.val) * 256 + c.val) / 1024 = a.val; omega)
  | ⟨1, _⟩ => exact Fin.ext (by show ((a.val * 4 + v.val) * 256 + c.val) % 1024 = v.val * 256 + c.val; omega)

/-- Where entry `(b, t, c)` of the reshaped normalised caption array comes from. -/
theorem idx41_eq (b : Fin 2048) (t : Fin 4) (c : Fin 256) :
    idx_main_v41 (ix3 b t c) = ix2 b ⟨t.val * 256 + c.val, by have := t.isLt; have := c.isLt; omega⟩ := by
  have hb := b.isLt; have ht := t.isLt; have hc := c.isLt
  funext e
  match e with
  | ⟨0, _⟩ => exact Fin.ext (by show ((b.val * 4 + t.val) * 256 + c.val) / 1024 = b.val; omega)
  | ⟨1, _⟩ => exact Fin.ext (by show ((b.val * 4 + t.val) * 256 + c.val) % 1024 = t.val * 256 + c.val; omega)

/-- The reshaped image array: entry `(a, v, c)` is entry `c` of block `v` of row `a`. -/
theorem v32_eq (x0 : Arr) (a : Fin 2048) (v : Fin 4) (c : Fin 256) :
    val_main_v32 (F := Ideal) x0 (ix3 a v c) = blk4 (row x0 a) v c := by
  rw [val_main_v32_apply, idx32_eq]; rfl

/-- The reshaped normalised caption array: entry `(b, t, c)` is entry `c` of block `t` of the normalised row `b`. -/
theorem v41_eq (x1 : Arr) (b : Fin 2048) (t : Fin 4) (c : Fin 256) :
    val_main_v41 (F := Ideal) x1 (ix3 b t c) = blk4 (unit (row x1 b)) t c := by
  rw [val_main_v41_apply, idx41_eq, v7_eq]; rfl

/-- The image blocks normalised: entry `(a, v, c)` is entry `c` of the normalised block `v` of row `a`. -/
theorem v40_eq (x0 : Arr) (a : Fin 2048) (v : Fin 4) (c : Fin 256) :
    val_main_v40 (F := Ideal) x0 (ix3 a v c) = unit (blk4 (row x0 a) v) c := by
  rw [val_main_v40_apply, val_main_v39_apply, val_main_v38_apply, val_main_v36_apply, val_main_v35_apply,
    val_main_v34_apply, val_main_v37_apply, val_main_cst_9_apply, val_main_cst_8_apply, v32_eq, unit_apply]
  simp only [Ideal.hostDivf_def, Ideal.addf_def, Ideal.hostUnary_sqrt_def, Ideal.ofBits_def,
    Ideal.ofBits_zero_f32, zero_add]
  refine congrArg (fun s => Ideal.div (blk4 (row x0 a) v c) (Ideal.sqrt s + eps)) (Finset.sum_congr rfl fun k _ => ?_)
  have hk : idx_main_v34 (idx_main_v35 (idx_main_v39 (ix3 a v c))) k = ix3 a v k :=
    funext fun e => by match e with | ⟨0, _⟩ => rfl | ⟨1, _⟩ => rfl | ⟨2, _⟩ => rfl
  rw [val_main_v33_apply, Ideal.mulf_def, hk, v32_eq]

/-- The caption blocks normalised: entry `(b, t, c)` is entry `c` of the normalised block `t` of the normalised row `b`. -/
theorem v49_eq (x1 : Arr) (b : Fin 2048) (t : Fin 4) (c : Fin 256) :
    val_main_v49 (F := Ideal) x1 (ix3 b t c) = unit (blk4 (unit (row x1 b)) t) c := by
  rw [val_main_v49_apply, val_main_v48_apply, val_main_v47_apply, val_main_v45_apply, val_main_v44_apply,
    val_main_v43_apply, val_main_v46_apply, val_main_cst_11_apply, val_main_cst_10_apply, v41_eq, unit_apply]
  simp only [Ideal.hostDivf_def, Ideal.addf_def, Ideal.hostUnary_sqrt_def, Ideal.ofBits_def,
    Ideal.ofBits_zero_f32, zero_add]
  refine congrArg (fun s => Ideal.div (blk4 (unit (row x1 b)) t c) (Ideal.sqrt s + eps))
    (Finset.sum_congr rfl fun k _ => ?_)
  have hk : idx_main_v43 (idx_main_v44 (idx_main_v48 (ix3 b t c))) k = ix3 b t k :=
    funext fun e => by match e with | ⟨0, _⟩ => rfl | ⟨1, _⟩ => rfl | ⟨2, _⟩ => rfl
  rw [val_main_v42_apply, Ideal.mulf_def, hk, v41_eq]

end Cert.Sims.Ref

end
-- ==== Proof.RefCut4.lean ====
/-
  The cut into 4: cosines, their maxima over the image blocks, and the sum of the maxima over the caption blocks.

  The contraction is formed with the caption blocks as left factor and laid out `[b, t, a, v]`; the transpose brings it
  to `[a, b, v, t]`. The maximum runs over `v` from the word of -∞, the sum over `t` from the word of zero.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import proofs.«113746_j31164282700672_2_alg».proof.Proof.RefNorms4

noncomputable section

open scoped BigOperators

namespace Cert.Sims.Ref

open Cert.ReferenceIdeal Cert.ReferenceIdeal.Gen Cert.ReferenceIdeal.Read Idealize.ShloMosaic Idealize.ShloMosaic.ValueIdx

/-- Entry `(a, b, v, t)` of the transposed contraction is the cosine of image block `v` of row `a` and caption block
    `t` of row `b`. -/
theorem v51_eq (x0 x1 : Arr) (a b : Fin 2048) (v t : Fin 4) :
    val_main_v51 (F := Ideal) x0 x1 (ix4 a b v t) = cos4 (row x0 a) (row x1 b) v t := by
  rw [val_main_v51_apply, val_main_v50_apply]
  unfold cos4
  refine Finset.sum_congr rfl fun k _ => ?_
  have hl : lidx_main_v50 (idx_main_v51 (ix4 a b v t)) k = ix3 b t k :=
    funext fun e => by match e with | ⟨0, _⟩ => rfl | ⟨1, _⟩ => rfl | ⟨2, _⟩ => rfl
  have hr : ridx_main_v50 (idx_main_v51 (ix4 a b v t)) k = ix3 a v k :=
    funext fun e => by match e with | ⟨0, _⟩ => rfl | ⟨1, _⟩ => rfl | ⟨2, _⟩ => rfl
  rw [hl, hr, v49_eq, v40_eq]

/-- The index `(a, b, t)` with the image-block coordinate `k` put back on the third axis. -/
theorem lift52_eq (h : S2048x2048x4x4.Reduces [2] S2048x2048x4) (a b : Fin 2048) (t : Fin 4)
    (k : Fin (S2048x2048x4x4.size 2)) :
    h.lift (ix3 a b t) k = ix4 a b (⟨k.val, k.isLt⟩ : Fin 4) t := by
  funext c; apply Fin.ext
  fin_cases c <;> rfl

/-- Entry `(a, b, t)` of the maximum-reduce is the maximum, from -∞, of the cosines over the image blocks. -/
theorem v52_eq (x0 x1 : Arr) (a b : Fin 2048) (t : Fin 4) :
    val_main_v52 (F := Ideal) x0 x1 (ix3 a b t)
      = (Finset.univ : Finset (Fin 4)).fold max bot (fun v => cos4 (row x0 a) (row x1 b) v t) := by
  have h : S2048x2048x4x4.Reduces [2] S2048x2048x4 := by decide
  unfold val_main_v52
  refine (Host.reduce_eq_fold_single (FloatOps.maximumf (F := Ideal) (φ := .f32)) (val_main_v51 (F := Ideal) x0 x1)
    (val_main_cst_12 (F := Ideal)) reducesTo_S2048x2048x4x4_S2048x2048x4_d2 h h_S_ (ix3 a b t)).trans ?_
  have hf : (val_main_v51 (F := Ideal) x0 x1 ∘ h.lift (ix3 a b t))
      = fun v : Fin 4 => cos4 (row x0 a) (row x1 b) v t :=
    funext fun k => by
      show val_main_v51 (F := Ideal) x0 x1 (h.lift (ix3 a b t) k) = _
      rw [lift52_eq h a b t k, v51_eq]
      rfl
  exact congrArg (fun f => Finset.fold max bot f (Finset.univ : Finset (Fin 4))) hf

/-- Entry `(a, b)` of the cut into 4 is the pooled value of image row `a` and caption row `b`. -/
theorem v53_eq (x0 x1 : Arr) (a b : Fin 2048) :
    val_main_v53 (F := Ideal) x0 x1 (ix2 a b) = pooled4 (row x0 a) (row x1 b) := by
  rw [val_main_v53_apply, val_main_cst_13_apply]
  simp only [Ideal.ofBits_def, Ideal.ofBits_zero_f32, zero_add]
  unfold pooled4
  refine Finset.sum_congr rfl fun k _ => ?_
  have hk : idx_main_v53 (ix2 a b) k = ix3 a b k :=
    funext fun e => by match e with | ⟨0, _⟩ => rfl | ⟨1, _⟩ => rfl | ⟨2, _⟩ => rfl
  rw [hk, v52_eq]

end Cert.Sims.Ref

end
-- ==== Proof.RefIsSpec.lean ====
/-
  The reference is the specification: its last stage is the sum of the two cuts' pooled values, entry by entry.
-/
import proofs.«113746_j31164282700672_2_alg».proof.Proof.Spec
import proofs.«113746_j31164282700672_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce
import proofs.«113746_j31164282700672_2_alg».proof.Proof.RefCut8
import proofs.«113746_j31164282700672_2_alg».proof.Proof.RefCut4

noncomputable section

open scoped BigOperators

namespace Cert.Sims.Ref

open Cert.ReferenceIdeal Cert.ReferenceIdeal.Read Idealize.ShloMosaic Idealize.ShloMosaic.ValueIdx

/-- For the image array `x0` and the caption array `x1`, the reference's result is `G x0 x1`: entry `(a, b)` is the
    pooled value of the cut into 8 plus that of the cut into 4, of image row `a` and caption row `b`. -/
theorem ref_eq (x0 x1 : (⟨Cert.ReferenceIdeal.S2048x1024, .f32⟩ : BufTy).Contents (Elt Ideal)) :
    Cert.ReferenceIdeal.Read.val_main_v54 (F := Ideal) x0 x1 = Cert.Sims.G x0 x1 := by
  funext i
  obtain ⟨a, b, rfl⟩ : ∃ a b, i = ix2 a b := ⟨i 0, i 1, eq_ix2 i⟩
  rw [val_main_v54_apply, Ideal.addf_def, v31_eq, v53_eq]
  rfl

end Cert.Sims.Ref

end
-- ==== Proof.KNorms.lean ====
/-
  The normalisations of the kernel's body, read at one entry.

  A row of the 256 × 1024 block divided by its Euclidean norm plus the small constant; and the same array cut into
  8 blocks of 128 (or 4 blocks of 256) with every block divided by its own norm plus the small constant. Each entry of
  the result depends on one row (one block of one row) of the source only.
-/
import proofs.«113746_j31164282700672_2_alg».proof.KernelIdeal
import proofs.«113746_j31164282700672_2_alg».proof.Proof.Gen.KernelIdeal
import proofs.«113746_j31164282700672_2_alg».proof.Proof.Spec
import Idealize.ShloMosaic.Lib.ValueIdx
import Idealize.ShloMosaic.Lib.Pipeline.Value
import Idealize.ShloMosaic.PureOps.Ideal.Laws

noncomputable section

open scoped BigOperators

namespace Cert.Sims.Kern

open Idealize.ShloMosaic Idealize.ShloMosaic.ValueIdx Cert.KernelIdeal

/-- A 256 × 1024 array with every row divided by its norm: entry (q, d) is entry `d` of row `q`, normalised. -/
theorem rowNorm (w : FVec Ideal S256x1024 .f32) (hr : S256x1024.Reduces [1] S256) (hφ : FKind.Formats .f32)
    (hacc : (0x00000000#32 : BitVec 32) = FKind.add.neutral .f32 hφ)
    (hc : S256.ShapeCasts S256x1) (hb : S256x1.Broadcasts S256x1024) (q : Fin 256) (d : Fin 1024) :
    divf w (broadcastTo S256x1024
        (addf (sqrt (shapeCast S256x1 (multiReduction .add [1] S256 (mulf w w) 0x00000000#32 hr hφ hacc) hc))
          (broadcast S256x1 (Scalar.ofBits .f32 0x322BCC77#32))) hb) (ix2 q d)
      = Cert.Sims.unit (fun d => w (ix2 q d)) d := by
  show Ideal.div (w (ix2 q d)) (broadcastTo S256x1024 _ hb (ix2 q d))
    = Ideal.div (w (ix2 q d)) (Cert.Sims.norm (fun d => w (ix2 q d)))
  refine congrArg (Ideal.div _) ?_
  refine (broadcastTo_apply _ hb (ix2 q d) (ix2 q (0 : Fin 1)) ?_).trans ?_
  · intro a
    match a with
    | ⟨0, _⟩ => show q.val = if (256 : Nat) = 1 then 0 else q.val; rw [if_neg (by decide)]
    | ⟨1, _⟩ => show 0 = if (1 : Nat) = 1 then 0 else d.val; rw [if_pos rfl]
  · show Ideal.sqrt (shapeCast S256x1 _ hc (ix2 q (0 : Fin 1))) + Ideal.ofBits .f32 0x322BCC77#32
      = Ideal.sqrt (∑ k, w (ix2 q k) * w (ix2 q k)) + Cert.Sims.eps
    refine congrArg (fun z => Ideal.sqrt z + Ideal.ofBits .f32 0x322BCC77#32) ?_
    refine (shapeCast_apply _ hc (ix2 q (0 : Fin 1)) (ix1 q) ?_).trans ?_
    · rw [Shape.rowMajor_val_one, Shape.rowMajor_val_two]
      show q.val = q.val * 1 + 0
      omega
    · rw [Ideal.multiReduction_add_single]
      show (∑ k : Fin 1024, mulf w w (hr.lift (ix1 q) k)) = _
      refine Finset.sum_congr rfl fun k _ => ?_
      have e : hr.lift (ix1 q) k = ix2 q k :=
        funext fun a => Fin.ext (by match a with | ⟨0, _⟩ => rfl | ⟨1, _⟩ => rfl)
      show w (hr.lift (ix1 q) k) * w (hr.lift (ix1 q) k) = _
      rw [e]

/-- Entry (p, v, c) of the 256 × 1024 array cut into 8 blocks of 128 is entry `c` of block `v` of row `p`. -/
theorem cut8 (w : FVec Ideal S256x1024 .f32) (hc0 : S256x1024.ShapeCasts S256x8x128)
    (p : Fin 256) (v : Fin 8) (c : Fin 128) :
    shapeCast S256x8x128 w hc0 (ix3 p v c) = Cert.Sims.blk8 (fun d => w (ix2 p d)) v c := by
  have hp := p.isLt; have hv := v.isLt; have hcc := c.isLt
  refine (shapeCast_apply w hc0 (ix3 p v c) (ix2 p ⟨v.val * 128 + c.val, by omega⟩) ?_).trans rfl
  rw [Shape.rowMajor_val_two, Shape.rowMajor_val_three]
  show p.val * 1024 + (v.val * 128 + c.val) = (p.val * 8 + v.val) * 128 + c.val
  omega

/-- A 256 × 1024 array cut into 8 blocks of 128, each block divided by its norm: entry (p, v, c) is entry `c` of
    block `v` of row `p`, normalised. -/
theorem blkNorm8 (w : FVec Ideal S256x1024 .f32) (hc0 : S256x1024.ShapeCasts S256x8x128)
    (hr : S256x8x128.Reduces [2] S256x8) (hφ : FKind.Formats .f32)
    (hacc : (0x00000000#32 : BitVec 32) = FKind.add.neutral .f32 hφ)
    (hc1 : S256x8.ShapeCasts S256x8x1) (hb : S256x8x1.Broadcasts S256x8x128)
    (p : Fin 256) (v : Fin 8) (c : Fin 128) :
    divf (shapeCast S256x8x128 w hc0)
      (broadcastTo S256x8x128
        (addf (sqrt (shapeCast S256x8x1
            (multiReduction .add [2] S256x8 (mulf (shapeCast S256x8x128 w hc0) (shapeCast S256x8x128 w hc0))
              0x00000000#32 hr hφ hacc) hc1))
          (broadcast S256x8x1 (Scalar.ofBits .f32 0x322BCC77#32))) hb) (ix3 p v c)
      = Cert.Sims.unit (Cert.Sims.blk8 (fun d => w (ix2 p d)) v) c := by
  show Ideal.div (shapeCast S256x8x128 w hc0 (ix3 p v c)) (broadcastTo S256x8x128 _ hb (ix3 p v c))
    = Ideal.div (Cert.Sims.blk8 (fun d => w (ix2 p d)) v c) (Cert.Sims.norm (Cert.Sims.blk8 (fun d => w (ix2 p d)) v))
  rw [cut8 w hc0 p v c]
  refine congrArg (Ideal.div _) ?_
  refine (broadcastTo_apply _ hb (ix3 p v c) (ix3 p v (0 : Fin 1)) ?_).trans ?_
  · intro a
    match a with
    | ⟨0, _⟩ => show p.val = if (256 : Nat) = 1 then 0 else p.val; rw [if_neg (by decide)]
    | ⟨1, _⟩ => show v.val = if (8 : Nat) = 1 then 0 else v.val; rw [if_neg (by decide)]
    | ⟨2, _⟩ => show 0 = if (1 : Nat) = 1 then 0 else c.val; rw [if_pos rfl]
  · show Ideal.sqrt (shapeCast S256x8x1 _ hc1 (ix3 p v (0 : Fin 1))) + Ideal.ofBits .f32 0x322BCC77#32
      = Ideal.sqrt (∑ k, Cert.Sims.blk8 (fun d => w (ix2 p d)) v k * Cert.Sims.blk8 (fun d => w (ix2 p d)) v k) + Cert.Sims.eps
    refine congrArg (fun z => Ideal.sqrt z + Ideal.ofBits .f32 0x322BCC77#32) ?_
    refine (shapeCast_apply _ hc1 (ix3 p v (0 : Fin 1)) (ix2 p v) ?_).trans ?_
    · rw [Shape.rowMajor_val_two, Shape.rowMajor_val_three]
      show p.val * 8 + v.val = (p.val * 8 + v.val) * 1 + 0
      omega
    · rw [Ideal.multiReduction_add_single]
      show (∑ k : Fin 128, mulf (shapeCast S256x8x128 w hc0) (shapeCast S256x8x128 w hc0) (hr.lift (ix2 p v) k)) = _
      refine Finset.sum_congr rfl fun k _ => ?_
      have e : hr.lift (ix2 p v) k = ix3 p v k :=
        funext fun a => Fin.ext (by match a with | ⟨0, _⟩ => rfl | ⟨1, _⟩ => rfl | ⟨2, _⟩ => rfl)
      show shapeCast S256x8x128 w hc0 (hr.lift (ix2 p v) k) * shapeCast S256x8x128 w hc0 (hr.lift (ix2 p v) k) = _
      rw [e, cut8 w hc0 p v k]

/-- Entry (p, v, c) of the 256 × 1024 array cut into 4 blocks of 256 is entry `c` of block `v` of row `p`. -/
theorem cut4 (w : FVec Ideal S256x1024 .f32) (hc0 : S256x1024.ShapeCasts S256x4x256)
    (p : Fin 256) (v : Fin 4) (c : Fin 256) :
    shapeCast S256x4x256 w hc0 (ix3 p v c) = Cert.Sims.blk4 (fun d => w (ix2 p d)) v c := by
  have hp := p.isLt; have hv := v.isLt; have hcc := c.isLt
  refine (shapeCast_apply w hc0 (ix3 p v c) (ix2 p ⟨v.val * 256 + c.val, by omega⟩) ?_).trans rfl
  rw [Shape.rowMajor_val_two, Shape.rowMajor_val_three]
  show p.val * 1024 + (v.val * 256 + c.val) = (p.val * 4 + v.val) * 256 + c.val
  omega

/-- A 256 × 1024 array cut into 4 blocks of 256, each block divided by its norm: entry (p, v, c) is entry `c` of
    block `v` of row `p`, normalised. -/
theorem blkNorm4 (w : FVec Ideal S256x1024 .f32) (hc0 : S256x1024.ShapeCasts S256x4x256)
    (hr : S256x4x256.Reduces [2] S256x4) (hφ : FKind.Formats .f32)
    (hacc : (0x00000000#32 : BitVec 32) = FKind.add.neutral .f32 hφ)
    (hc1 : S256x4.ShapeCasts S256x4x1) (hb : S256x4x1.Broadcasts S256x4x256)
    (p : Fin 256) (v : Fin 4) (c : Fin 256) :
    divf (shapeCast S256x4x256 w hc0)
      (broadcastTo S256x4x256
        (addf (sqrt (shapeCast S256x4x1
            (multiReduction .add [2] S256x4 (mulf (shapeCast S256x4x256 w hc0) (shapeCast S256x4x256 w hc0))
              0x00000000#32 hr hφ hacc) hc1))
          (broadcast S256x4x1 (Scalar.ofBits .f32 0x322BCC77#32))) hb) (ix3 p v c)
      = Cert.Sims.unit (Cert.Sims.blk4 (fun d => w (ix2 p d)) v) c := by
  show Ideal.div (shapeCast S256x4x256 w hc0 (ix3 p v c)) (broadcastTo S256x4x256 _ hb (ix3 p v c))
    = Ideal.div (Cert.Sims.blk4 (fun d => w (ix2 p d)) v c) (Cert.Sims.norm (Cert.Sims.blk4 (fun d => w (ix2 p d)) v))
  rw [cut4 w hc0 p v c]
  refine congrArg (Ideal.div _) ?_
  refine (broadcastTo_apply _ hb (ix3 p v c) (ix3 p v (0 : Fin 1)) ?_).trans ?_
  · intro a
    match a with
    | ⟨0, _⟩ => show p.val = if (256 : Nat) = 1 then 0 else p.val; rw [if_neg (by decide)]
    | ⟨1, _⟩ => show v.val = if (4 : Nat) = 1 then 0 else v.val; rw [if_neg (by decide)]
    | ⟨2, _⟩ => show 0 = if (1 : Nat) = 1 then 0 else c.val; rw [if_pos rfl]
  · show Ideal.sqrt (shapeCast S256x4x1 _ hc1 (ix3 p v (0 : Fin 1))) + Ideal.ofBits .f32 0x322BCC77#32
      = Ideal.sqrt (∑ k, Cert.Sims.blk4 (fun d => w (ix2 p d)) v k * Cert.Sims.blk4 (fun d => w (ix2 p d)) v k) + Cert.Sims.eps
    refine congrArg (fun z => Ideal.sqrt z + Ideal.ofBits .f32 0x322BCC77#32) ?_
    refine (shapeCast_apply _ hc1 (ix3 p v (0 : Fin 1)) (ix2 p v) ?_).trans ?_
    · rw [Shape.rowMajor_val_two, Shape.rowMajor_val_three]
      show p.val * 4 + v.val = (p.val * 4 + v.val) * 1 + 0
      omega
    · rw [Ideal.multiReduction_add_single]
      show (∑ k : Fin 256, mulf (shapeCast S256x4x256 w hc0) (shapeCast S256x4x256 w hc0) (hr.lift (ix2 p v) k)) = _
      refine Finset.sum_congr rfl fun k _ => ?_
      have e : hr.lift (ix2 p v) k = ix3 p v k :=
        funext fun a => Fin.ext (by match a with | ⟨0, _⟩ => rfl | ⟨1, _⟩ => rfl | ⟨2, _⟩ => rfl)
      show shapeCast S256x4x256 w hc0 (hr.lift (ix2 p v) k) * shapeCast S256x4x256 w hc0 (hr.lift (ix2 p v) k) = _
      rw [e, cut4 w hc0 p v k]

end Cert.Sims.Kern

end
-- ==== Proof.KStep8.lean ====
/-
  One caption block's step of the cut into 8, read at one entry.

  The 256 image rows' 8 normalised blocks are laid out as 2048 rows of 128 (row `p * 8 + v` is block `v` of image row `p`).
  Caption block `t` of the 256 caption rows is sliced out, transposed, and multiplied from the right; the 2048 × 256
  product is cut back into 256 × 8 × 256 and maximised over the 8 image blocks. At entry (p, q) this is the maximum over
  `v`, starting from -∞, of the sum over `c` of image block (p, v) times caption block (q, t).
-/
import proofs.«113746_j31164282700672_2_alg».proof.KernelIdeal
import proofs.«113746_j31164282700672_2_alg».proof.Proof.Gen.KernelIdeal
import proofs.«113746_j31164282700672_2_alg».proof.Proof.Spec
import Idealize.ShloMosaic.Lib.ValueIdx
import Idealize.ShloMosaic.Lib.Pipeline.Value
import Idealize.ShloMosaic.PureOps.Ideal.Laws

noncomputable section

open scoped BigOperators

namespace Cert.Sims.Kern

open Idealize.ShloMosaic Idealize.ShloMosaic.ValueIdx Cert.KernelIdeal

/-- Row `p * 8 + v` of the 2048 merged rows: block `v` of image row `p`. -/
abbrev row8 (p : Fin 256) (v : Fin 8) : Fin 2048 := ⟨p.val * 8 + v.val, by have := p.isLt; have := v.isLt; omega⟩

/-- Axis 0 of the left operand's index is the output row. -/
theorem lhs8_0 (j : S2048x256.Idx) (k : dot_S2048x128_S128x256_S2048x256_1_0_0_1_n_n.contr.Idx) : (dot_S2048x128_S128x256_S2048x256_1_0_0_1_n_n.lhsIdx j k 0).val = (j 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl

/-- Axis 1 of the left operand's index is the contraction coordinate. -/
theorem lhs8_1 (j : S2048x256.Idx) (k : dot_S2048x128_S128x256_S2048x256_1_0_0_1_n_n.contr.Idx) : (dot_S2048x128_S128x256_S2048x256_1_0_0_1_n_n.lhsIdx j k 1).val = (k ⟨0, by decide⟩).val :=
  dot_S2048x128_S128x256_S2048x256_1_0_0_1_n_n.lhsIdx_val_of_single rfl j k

/-- Axis 0 of the right operand's index is the contraction coordinate. -/
theorem rhs8_0 (j : S2048x256.Idx) (k : dot_S2048x128_S128x256_S2048x256_1_0_0_1_n_n.contr.Idx) : (dot_S2048x128_S128x256_S2048x256_1_0_0_1_n_n.rhsIdx j k 0).val = (k ⟨0, by decide⟩).val :=
  dot_S2048x128_S128x256_S2048x256_1_0_0_1_n_n.rhsIdx_val_of_single rfl j k

/-- Axis 1 of the right operand's index is the output column. -/
theorem rhs8_1 (j : S2048x256.Idx) (k : dot_S2048x128_S128x256_S2048x256_1_0_0_1_n_n.contr.Idx) : (dot_S2048x128_S128x256_S2048x256_1_0_0_1_n_n.rhsIdx j k 1).val = (j 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl

/-- The left operand's index of the 2048×128 by 128×256 product at output (r, q) and contraction coordinate `c`. -/
theorem lhsIdx8 (r : Fin 2048) (q : Fin 256) (c : Fin 128) :
    dot_S2048x128_S128x256_S2048x256_1_0_0_1_n_n.lhsIdx (ix2 r q) ((contrEquiv1 dot_S2048x128_S128x256_S2048x256_1_0_0_1_n_n 128 rfl rfl).symm c) = ix2 r c := by
  have hk := contrEquiv1_symm_val dot_S2048x128_S128x256_S2048x256_1_0_0_1_n_n 128 rfl rfl c
  funext a; apply Fin.ext
  match a with
  | ⟨0, _⟩ => exact lhs8_0 _ _
  | ⟨1, _⟩ => exact (lhs8_1 _ _).trans hk

/-- The right operand's index of the same product. -/
theorem rhsIdx8 (r : Fin 2048) (q : Fin 256) (c : Fin 128) :
    dot_S2048x128_S128x256_S2048x256_1_0_0_1_n_n.rhsIdx (ix2 r q) ((contrEquiv1 dot_S2048x128_S128x256_S2048x256_1_0_0_1_n_n 128 rfl rfl).symm c) = ix2 c q := by
  have hk := contrEquiv1_symm_val dot_S2048x128_S128x256_S2048x256_1_0_0_1_n_n 128 rfl rfl c
  funext a; apply Fin.ext
  match a with
  | ⟨0, _⟩ => exact (rhs8_0 _ _).trans hk
  | ⟨1, _⟩ => exact rhs8_1 _ _

/-- Caption block `t`, sliced out of the 256 × 8 × 128 blocks and transposed, at (c, q) is block entry (q, t, c). -/
theorem capT8 (b : FVec Ideal S256x8x128 .bf16) (ti : Nat) (hti : ti < 8)
    (hs : S256x8x128.Slices ![0, ti, 0] S256x1x128) (hc : S256x1x128.ShapeCasts S256x128)
    (ht : S256x128.Transposes [1, 0] S128x256) (c : Fin 128) (q : Fin 256) :
    transpose S128x256 [1, 0] (shapeCast S256x128 (extractStridedSlice S256x1x128 ![0, ti, 0] b hs) hc) ht (ix2 c q)
      = b (ix3 q ⟨ti, hti⟩ c) := by
  refine (transpose_apply [1, 0] _ ht (ix2 c q) (ix2 q c) (fun a => match a with | ⟨0, _⟩ => rfl | ⟨1, _⟩ => rfl)).trans ?_
  refine (shapeCast_apply _ hc (ix2 q c) (ix3 q (0 : Fin 1) c) ?_).trans ?_
  · rw [Shape.rowMajor_val_two, Shape.rowMajor_val_three]
    show (q.val * 1 + 0) * 128 + c.val = q.val * 128 + c.val
    omega
  · exact extractStridedSlice_apply _ b hs (ix3 q (0 : Fin 1) c) (ix3 q ⟨ti, hti⟩ c)
      (fun a => match a with
        | ⟨0, _⟩ => by show q.val = 0 + q.val; omega
        | ⟨1, _⟩ => by show ti = ti + 0; omega
        | ⟨2, _⟩ => by show c.val = 0 + c.val; omega)

/-- THE STEP at entry (p, q): the maximum over the image blocks `v`, from -∞, of the sum over `c` of
    image block (p, v) times caption block (q, t). -/
theorem step8 (a : FVec Ideal S2048x128 .bf16) (b : FVec Ideal S256x8x128 .bf16) (ti : Nat) (hti : ti < 8)
    (hs : S256x8x128.Slices ![0, ti, 0] S256x1x128) (hc : S256x1x128.ShapeCasts S256x128)
    (ht : S256x128.Transposes [1, 0] S128x256) (hc2 : S2048x256.ShapeCasts S256x8x256)
    (hr : S256x8x256.Reduces [1] S256x256) (hφ : FKind.Formats .f32)
    (hacc : (0xFF800000#32 : BitVec 32) = FKind.maximumf.neutral .f32 hφ) (p q : Fin 256) :
    multiReduction .maximumf [1] S256x256
      (shapeCast S256x8x256 (matmul dot_S2048x128_S128x256_S2048x256_1_0_0_1_n_n none a
        (transpose S128x256 [1, 0] (shapeCast S256x128 (extractStridedSlice S256x1x128 ![0, ti, 0] b hs) hc) ht)
        (constant S2048x256 .f32 0x00000000#32)) hc2)
      0xFF800000#32 hr hφ hacc (ix2 p q)
    = (Finset.univ : Finset (Fin 8)).fold max Cert.Sims.bot
        (fun v => ∑ c : Fin 128, a (ix2 (row8 p v) c) * b (ix3 q ⟨ti, hti⟩ c)) := by
  rw [Ideal.multiReduction_maximumf_single]
  refine Finset.fold_congr (fun v _ => ?_)
  show shapeCast S256x8x256 _ hc2 (hr.lift (ix2 p q) v) = _
  refine (shapeCast_apply _ hc2 (hr.lift (ix2 p q) v) (ix2 (row8 p v) q) ?_).trans ?_
  · rw [Shape.rowMajor_val_two, Shape.rowMajor_val_three]
    show (p.val * 8 + v.val) * 256 + q.val = (p.val * 8 + v.val) * 256 + q.val
    rfl
  · refine (Ideal.matmul_constant_zero_apply dot_S2048x128_S128x256_S2048x256_1_0_0_1_n_n none a _ (ix2 (row8 p v) q)).trans ?_
    rw [← Equiv.sum_comp (contrEquiv1 dot_S2048x128_S128x256_S2048x256_1_0_0_1_n_n 128 rfl rfl).symm]
    refine Finset.sum_congr rfl fun c _ => ?_
    rw [lhsIdx8, rhsIdx8, capT8 b ti hti hs hc ht c q]

end Cert.Sims.Kern

end
-- ==== Proof.KStep4.lean ====
/-
  One caption block's step of the cut into 4, read at one entry.

  The 256 image rows' 4 normalised blocks are laid out as 1024 rows of 256 (row `p * 4 + v` is block `v` of image row `p`).
  Caption block `t` of the 256 caption rows is sliced out, transposed, and multiplied from the right; the 1024 × 256
  product is cut back into 256 × 4 × 256 and maximised over the 4 image blocks. At entry (p, q) this is the maximum over
  `v`, starting from -∞, of the sum over `c` of image block (p, v) times caption block (q, t).
-/
import proofs.«113746_j31164282700672_2_alg».proof.KernelIdeal
import proofs.«113746_j31164282700672_2_alg».proof.Proof.Gen.KernelIdeal
import proofs.«113746_j31164282700672_2_alg».proof.Proof.Spec
import Idealize.ShloMosaic.Lib.ValueIdx
import Idealize.ShloMosaic.Lib.Pipeline.Value
import Idealize.ShloMosaic.PureOps.Ideal.Laws

noncomputable section

open scoped BigOperators

namespace Cert.Sims.Kern

open Idealize.ShloMosaic Idealize.ShloMosaic.ValueIdx Cert.KernelIdeal

/-- Row `p * 4 + v` of the 1024 merged rows: block `v` of image row `p`. -/
abbrev row4 (p : Fin 256) (v : Fin 4) : Fin 1024 := ⟨p.val * 4 + v.val, by have := p.isLt; have := v.isLt; omega⟩

/-- Axis 0 of the left operand's index is the output row. -/
theorem lhs4_0 (j : S1024x256.Idx) (k : dot_S1024x256_S256x256_S1024x256_1_0_0_1_n_n.contr.Idx) : (dot_S1024x256_S256x256_S1024x256_1_0_0_1_n_n.lhsIdx j k 0).val = (j 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- Axis 1 of the left operand's index is the contraction coordinate. -/
theorem lhs4_1 (j : S1024x256.Idx) (k : dot_S1024x256_S256x256_S1024x256_1_0_0_1_n_n.contr.Idx) : (dot_S1024x256_S256x256_S1024x256_1_0_0_1_n_n.lhsIdx j k 1).val = (k ⟨0, by decide⟩).val :=
  dot_S1024x256_S256x256_S1024x256_1_0_0_1_n_n.lhsIdx_val_of_single rfl j k

/-- Axis 0 of the right operand's index is the contraction coordinate. -/
theorem rhs4_0 (j : S1024x256.Idx) (k : dot_S1024x256_S256x256_S1024x256_1_0_0_1_n_n.contr.Idx) : (dot_S1024x256_S256x256_S1024x256_1_0_0_1_n_n.rhsIdx j k 0).val = (k ⟨0, by decide⟩).val :=
  dot_S1024x256_S256x256_S1024x256_1_0_0_1_n_n.rhsIdx_val_of_single rfl j k

/-- Axis 1 of the right operand's index is the output column. -/
theorem rhs4_1 (j : S1024x256.Idx) (k : dot_S1024x256_S256x256_S1024x256_1_0_0_1_n_n.contr.Idx) : (dot_S1024x256_S256x256_S1024x256_1_0_0_1_n_n.rhsIdx j k 1).val = (j 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The left operand's index of the 1024×256 by 256×256 product at output (r, q) and contraction coordinate `c`. -/
theorem lhsIdx4 (r : Fin 1024) (q : Fin 256) (c : Fin 256) :
    dot_S1024x256_S256x256_S1024x256_1_0_0_1_n_n.lhsIdx (ix2 r q) ((contrEquiv1 dot_S1024x256_S256x256_S1024x256_1_0_0_1_n_n 256 rfl rfl).symm c) = ix2 r c := by
  have hk := contrEquiv1_symm_val dot_S1024x256_S256x256_S1024x256_1_0_0_1_n_n 256 rfl rfl c
  funext a; apply Fin.ext
  match a with
  | ⟨0, _⟩ => exact lhs4_0 _ _
  | ⟨1, _⟩ => exact (lhs4_1 _ _).trans hk

/-- The right operand's index of the same product. -/
theorem rhsIdx4 (r : Fin 1024) (q : Fin 256) (c : Fin 256) :
    dot_S1024x256_S256x256_S1024x256_1_0_0_1_n_n.rhsIdx (ix2 r q) ((contrEquiv1 dot_S1024x256_S256x256_S1024x256_1_0_0_1_n_n 256 rfl rfl).symm c) = ix2 c q := by
  have hk := contrEquiv1_symm_val dot_S1024x256_S256x256_S1024x256_1_0_0_1_n_n 256 rfl rfl c
  funext a; apply Fin.ext
  match a with
  | ⟨0, _⟩ => exact (rhs4_0 _ _).trans hk
  | ⟨1, _⟩ => exact rhs4_1 _ _

/-- Caption block `t`, sliced out of the 256 × 4 × 256 blocks and transposed, at (c, q) is block entry (q, t, c). -/
theorem capT4 (b : FVec Ideal S256x4x256 .bf16) (ti : Nat) (hti : ti < 4)
    (hs : S256x4x256.Slices ![0, ti, 0] S256x1x256) (hc : S256x1x256.ShapeCasts S256x256)
    (ht : S256x256.Transposes [1, 0] S256x256) (c : Fin 256) (q : Fin 256) :
    transpose S256x256 [1, 0] (shapeCast S256x256 (extractStridedSlice S256x1x256 ![0, ti, 0] b hs) hc) ht (ix2 c q)
      = b (ix3 q ⟨ti, hti⟩ c) := by
  refine (transpose_apply [1, 0] _ ht (ix2 c q) (ix2 q c) (fun a => match a with | ⟨0, _⟩ => rfl | ⟨1, _⟩ => rfl)).trans ?_
  refine (shapeCast_apply _ hc (ix2 q c) (ix3 q (0 : Fin 1) c) ?_).trans ?_
  · rw [Shape.rowMajor_val_two, Shape.rowMajor_val_three]
    show (q.val * 1 + 0) * 256 + c.val = q.val * 256 + c.val
    omega
  · exact extractStridedSlice_apply _ b hs (ix3 q (0 : Fin 1) c) (ix3 q ⟨ti, hti⟩ c)
      (fun a => match a with
        | ⟨0, _⟩ => by show q.val = 0 + q.val; omega
        | ⟨1, _⟩ => by show ti = ti + 0; omega
        | ⟨2, _⟩ => by show c.val = 0 + c.val; omega)

/-- THE STEP at entry (p, q): the maximum over the image blocks `v`, from -∞, of the sum over `c` of
    image block (p, v) times caption block (q, t). -/
theorem step4 (a : FVec Ideal S1024x256 .bf16) (b : FVec Ideal S256x4x256 .bf16) (ti : Nat) (hti : ti < 4)
    (hs : S256x4x256.Slices ![0, ti, 0] S256x1x256) (hc : S256x1x256.ShapeCasts S256x256)
    (ht : S256x256.Transposes [1, 0] S256x256) (hc2 : S1024x256.ShapeCasts S256x4x256)
    (hr : S256x4x256.Reduces [1] S256x256) (hφ : FKind.Formats .f32)
    (hacc : (0xFF800000#32 : BitVec 32) = FKind.maximumf.neutral .f32 hφ) (p q : Fin 256) :
    multiReduction .maximumf [1] S256x256
      (shapeCast S256x4x256 (matmul dot_S1024x256_S256x256_S1024x256_1_0_0_1_n_n none a
        (transpose S256x256 [1, 0] (shapeCast S256x256 (extractStridedSlice S256x1x256 ![0, ti, 0] b hs) hc) ht)
        (constant S1024x256 .f32 0x00000000#32)) hc2)
      0xFF800000#32 hr hφ hacc (ix2 p q)
    = (Finset.univ : Finset (Fin 4)).fold max Cert.Sims.bot
        (fun v => ∑ c : Fin 256, a (ix2 (row4 p v) c) * b (ix3 q ⟨ti, hti⟩ c)) := by
  rw [Ideal.multiReduction_maximumf_single]
  refine Finset.fold_congr (fun v _ => ?_)
  show shapeCast S256x4x256 _ hc2 (hr.lift (ix2 p q) v) = _
  refine (shapeCast_apply _ hc2 (hr.lift (ix2 p q) v) (ix2 (row4 p v) q) ?_).trans ?_
  · rw [Shape.rowMajor_val_two, Shape.rowMajor_val_three]
    show (p.val * 4 + v.val) * 256 + q.val = (p.val * 4 + v.val) * 256 + q.val
    rfl
  · refine (Ideal.matmul_constant_zero_apply dot_S1024x256_S256x256_S1024x256_1_0_0_1_n_n none a _ (ix2 (row4 p v) q)).trans ?_
    rw [← Equiv.sum_comp (contrEquiv1 dot_S1024x256_S256x256_S1024x256_1_0_0_1_n_n 256 rfl rfl).symm]
    refine Finset.sum_congr rfl fun c _ => ?_
    rw [lhsIdx4, rhsIdx4, capT4 b ti hti hs hc ht c q]

end Cert.Sims.Kern

end
-- ==== Proof.KAcc.lean ====
/-
  The two accumulations of the kernel's body, read at one entry.

  For each cut the body starts from zero and adds, caption block after caption block, the maximum over the image blocks
  of the block cosines. At entry (p, q) that is the sum over the caption blocks `t` of the maximum over the image blocks
  `v`, from -∞, of the sum over `c` of normalised image block (p, v) times normalised caption block (q, t): adding
  zero changes nothing and the order of a finite sum does not matter.
-/
import proofs.«113746_j31164282700672_2_alg».proof.Proof.Gen.KernelIdeal.Skeleton
import proofs.«113746_j31164282700672_2_alg».proof.Proof.KStep8
import proofs.«113746_j31164282700672_2_alg».proof.Proof.KStep4

noncomputable section

open scoped BigOperators

namespace Cert.Sims.Kern

open Idealize.ShloMosaic Idealize.ShloMosaic.ValueIdx Cert.KernelIdeal Cert.KernelIdeal.Gen

/-- Zero, plus eight terms added one after another from zero, is the sum of the eight. -/
theorem add8 (z : EReal) (hz : z = 0) (f : Fin 8 → EReal) (x0 x1 x2 x3 x4 x5 x6 x7 : EReal)
    (h0 : x0 = f 0) (h1 : x1 = f 1) (h2 : x2 = f 2) (h3 : x3 = f 3) (h4 : x4 = f 4) (h5 : x5 = f 5) (h6 : x6 = f 6)
    (h7 : x7 = f 7) : z + ((((((((z + x0) + x1) + x2) + x3) + x4) + x5) + x6) + x7) = ∑ t, f t := by
  subst hz h0 h1 h2 h3 h4 h5 h6 h7
  rw [Fin.sum_univ_eight, zero_add, zero_add]

/-- Four terms added one after another from zero are the sum of the four. -/
theorem add4 (z : EReal) (hz : z = 0) (f : Fin 4 → EReal) (x0 x1 x2 x3 : EReal)
    (h0 : x0 = f 0) (h1 : x1 = f 1) (h2 : x2 = f 2) (h3 : x3 = f 3) :
    (((z + x0) + x1) + x2) + x3 = ∑ t, f t := by
  subst hz h0 h1 h2 h3
  rw [Fin.sum_univ_four, zero_add]

/-- The cut into 8: zero, plus the eight steps added one after another, is the sum over the caption blocks. -/
theorem acc8 (P0 P1 : Vec Ideal S256x1024 .f32) (p q : Fin 256) :
    k0_pay8 (F := Ideal) k0_pay3 (k0_pay4 P0) (k0_pay5 P1) (k0_pay6 P0 P1) (k0_pay7 P1)
        (constant S2048x256 .f32 0x00000000#32) (ix2 p q)
      = ∑ t : Fin 8, (Finset.univ : Finset (Fin 8)).fold max Cert.Sims.bot
          (fun v => ∑ c : Fin 128, k0_pay4 (F := Ideal) P0 (ix2 (row8 p v) c) * k0_pay5 (F := Ideal) P1 (ix3 q t c)) :=
  add8 (Ideal.ofBits .f32 0x00000000#32) Ideal.ofBits_zero_f32
    (fun t => (Finset.univ : Finset (Fin 8)).fold max Cert.Sims.bot
      (fun v => ∑ c : Fin 128, k0_pay4 (F := Ideal) P0 (ix2 (row8 p v) c) * k0_pay5 (F := Ideal) P1 (ix3 q t c)))
    _ _ _ _ _ _ _ _
    (step8 (k0_pay4 (F := Ideal) P0) (k0_pay5 (F := Ideal) P1) 0 (by decide) slices_S256x8x128_o0_0_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 1 (by decide) slices_S256x8x128_o0_1_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 2 (by decide) slices_S256x8x128_o0_2_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 3 (by decide) slices_S256x8x128_o0_3_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 4 (by decide) slices_S256x8x128_o0_4_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 5 (by decide) slices_S256x8x128_o0_5_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 6 (by decide) slices_S256x8x128_o0_6_0_S256x1x128 shapeCasts_S256x1x128_S256x128 transposes_S256x128_p1_0_S128x256 shapeCasts_S2048x256_S256x8x256 reduces_S256x8x256_S256x256 (.inl rfl) rfl p q)
    (step8 (k0_pay4 (F := Ideal) P0) (k0_pay5 (F := Ideal) P1) 7 (by decide) slices_S256x8x128_o0_7_0_S256x1x128 shapeCasts_S256x1x128_S256x128 transposes_S256x128_p1_0_S128x256 shapeCasts_S2048x256_S256x8x256 reduces_S256x8x256_S256x256 (.inl rfl) rfl p q)

/-- The cut into 4: the four steps added one after another from zero are the sum over the caption blocks. -/
theorem acc4 (P0 : Vec Ideal S256x1024 .f32) (w : FVec Ideal S256x1024 .f32) (p q : Fin 256) :
    addf (k0_pay11 (F := Ideal) P0 w)
        (multiReduction .maximumf [1] S256x256 (k0_pay12 (F := Ideal) P0 w) 0xFF800000#32 reduces_S256x4x256_S256x256 (.inl rfl) rfl)
        (ix2 p q)
      = ∑ t : Fin 4, (Finset.univ : Finset (Fin 4)).fold max Cert.Sims.bot
          (fun v => ∑ c : Fin 256, k0_pay9 (F := Ideal) P0 (ix2 (row4 p v) c) * k0_pay10 (F := Ideal) w (ix3 q t c)) :=
  add4 (Ideal.ofBits .f32 0x00000000#32) Ideal.ofBits_zero_f32
    (fun t => (Finset.univ : Finset (Fin 4)).fold max Cert.Sims.bot
      (fun v => ∑ c : Fin 256, k0_pay9 (F := Ideal) P0 (ix2 (row4 p v) c) * k0_pay10 (F := Ideal) w (ix3 q t c)))
    _ _ _ _
    (step4 (k0_pay9 (F := Ideal) P0) (k0_pay10 (F := Ideal) w) 0 (by decide) slices_S256x4x256_o0_0_0_S256x1x256 shapeCasts_S256x1x256_S256x256 transposes_S256x256_p1_0_S256x256 shapeCasts_S1024x256_S256x4x256 reduces_S256x4x256_S256x256 (.inl rfl) rfl p q)
    (step4 (k0_pay9 (F := Ideal) P0) (k0_pay10 (F := Ideal) w) 1 (by decide) slices_S256x4x256_o0_1_0_S256x1x256 shapeCasts_S256x1x256_S256x256 transposes_S256x256_p1_0_S256x256 shapeCasts_S1024x256_S256x4x256 reduces_S256x4x256_S256x256 (.inl rfl) rfl p q)
    (step4 (k0_pay9 (F := Ideal) P0) (k0_pay10 (F := Ideal) w) 2 (by decide) slices_S256x4x256_o0_2_0_S256x1x256 shapeCasts_S256x1x256_S256x256 transposes_S256x256_p1_0_S256x256 shapeCasts_S1024x256_S256x4x256 reduces_S256x4x256_S256x256 (.inl rfl) rfl p q)
    (step4 (k0_pay9 (F := Ideal) P0) (k0_pay10 (F := Ideal) w) 3 (by decide) slices_S256x4x256_o0_3_0_S256x1x256 shapeCasts_S256x1x256_S256x256 transposes_S256x256_p1_0_S256x256 shapeCasts_S1024x256_S256x4x256 reduces_S256x4x256_S256x256 (.inl rfl) rfl p q)

end Cert.Sims.Kern

end
-- ==== Proof.KPayload.lean ====
/-
  The kernel body's stored value at entry (p, q) of the output block is the similarity of row `p` of the image block and
  row `q` of the caption block.

  The normalised operands of the products are read entry by entry (each depends on one row of its block only); the two
  accumulations are sums over the caption blocks of maxima over the image blocks; and a product of two extended reals
  does not depend on the order of its factors, which is the one difference left between the body and the specification.
-/
import proofs.«113746_j31164282700672_2_alg».proof.Proof.KNorms
import proofs.«113746_j31164282700672_2_alg».proof.Proof.KAcc

noncomputable section

open scoped BigOperators

namespace Cert.Sims.Kern

open Idealize.ShloMosaic Idealize.ShloMosaic.ValueIdx Cert.KernelIdeal Cert.KernelIdeal.Gen

/-- The caption block with every row normalised whole. -/
theorem pay2_at (P1 : Vec Ideal S256x1024 .f32) (q : Fin 256) (d : Fin 1024) :
    k0_pay2 (F := Ideal) P1 (ix2 q d) = Cert.Sims.unit (fun d => P1 (ix2 q d)) d :=
  rowNorm P1 reduces_S256x1024_S256 (.inl rfl) rfl shapeCasts_S256_S256x1 broadcasts_S256x1_S256x1024 q d

/-- Row `q` of the normalised caption block, as a function. -/
theorem pay2_row (P1 : Vec Ideal S256x1024 .f32) (q : Fin 256) :
    (fun d => k0_pay2 (F := Ideal) P1 (ix2 q d)) = Cert.Sims.unit (fun d => P1 (ix2 q d)) :=
  funext fun d => pay2_at P1 q d

/-- The image blocks of the cut into 8, normalised, laid out as 2048 rows. -/
theorem pay4_at (P0 : Vec Ideal S256x1024 .f32) (p : Fin 256) (v : Fin 8) (c : Fin 128) :
    k0_pay4 (F := Ideal) P0 (ix2 (row8 p v) c) = Cert.Sims.unit (Cert.Sims.blk8 (fun d => P0 (ix2 p d)) v) c := by
  unfold k0_pay4
  refine (truncf_apply _ bitsLt_bf16_f32 (ix2 (row8 p v) c)).trans ?_
  refine (shapeCast_apply _ shapeCasts_S256x8x128_S2048x128 (ix2 (row8 p v) c) (ix3 p v c) ?_).trans ?_
  · rw [Shape.rowMajor_val_two, Shape.rowMajor_val_three]
    rfl
  · exact blkNorm8 P0 shapeCasts_S256x1024_S256x8x128 reduces_S256x8x128_S256x8 (.inl rfl) rfl
      shapeCasts_S256x8_S256x8x1 broadcasts_S256x8x1_S256x8x128 p v c

/-- The blocks of the normalised caption rows in the cut into 8, normalised. -/
theorem pay5_at (P1 : Vec Ideal S256x1024 .f32) (q : Fin 256) (t : Fin 8) (c : Fin 128) :
    k0_pay5 (F := Ideal) P1 (ix3 q t c)
      = Cert.Sims.unit (Cert.Sims.blk8 (Cert.Sims.unit (fun d => P1 (ix2 q d))) t) c := by
  refine (blkNorm8 (k0_pay2 (F := Ideal) P1) shapeCasts_S256x1024_S256x8x128 reduces_S256x8x128_S256x8 (.inl rfl) rfl
    shapeCasts_S256x8_S256x8x1 broadcasts_S256x8x1_S256x8x128 q t c).trans ?_
  rw [pay2_row]

/-- The image blocks of the cut into 4, normalised, laid out as 1024 rows. -/
theorem pay9_at (P0 : Vec Ideal S256x1024 .f32) (p : Fin 256) (v : Fin 4) (c : Fin 256) :
    k0_pay9 (F := Ideal) P0 (ix2 (row4 p v) c) = Cert.Sims.unit (Cert.Sims.blk4 (fun d => P0 (ix2 p d)) v) c := by
  unfold k0_pay9
  refine (truncf_apply _ bitsLt_bf16_f32 (ix2 (row4 p v) c)).trans ?_
  refine (shapeCast_apply _ shapeCasts_S256x4x256_S1024x256 (ix2 (row4 p v) c) (ix3 p v c) ?_).trans ?_
  · rw [Shape.rowMajor_val_two, Shape.rowMajor_val_three]
    rfl
  · exact blkNorm4 P0 shapeCasts_S256x1024_S256x4x256 reduces_S256x4x256_S256x4 (.inl rfl) rfl
      shapeCasts_S256x4_S256x4x1 broadcasts_S256x4x1_S256x4x256 p v c

/-- The blocks of the normalised caption rows in the cut into 4, normalised. -/
theorem pay10_at (P1 : Vec Ideal S256x1024 .f32) (q : Fin 256) (t : Fin 4) (c : Fin 256) :
    k0_pay10 (F := Ideal) (k0_pay2 (F := Ideal) P1) (ix3 q t c)
      = Cert.Sims.unit (Cert.Sims.blk4 (Cert.Sims.unit (fun d => P1 (ix2 q d))) t) c := by
  refine (blkNorm4 (k0_pay2 (F := Ideal) P1) shapeCasts_S256x1024_S256x4x256 reduces_S256x4x256_S256x4 (.inl rfl) rfl
    shapeCasts_S256x4_S256x4x1 broadcasts_S256x4x1_S256x4x256 q t c).trans ?_
  rw [pay2_row]

/-- The cut into 8 at entry (p, q). -/
theorem pooled8_eq (P0 P1 : Vec Ideal S256x1024 .f32) (p q : Fin 256) :
    k0_pay8 (F := Ideal) k0_pay3 (k0_pay4 P0) (k0_pay5 P1) (k0_pay6 P0 P1) (k0_pay7 P1)
        (constant S2048x256 .f32 0x00000000#32) (ix2 p q)
      = Cert.Sims.pooled8 (fun d => P0 (ix2 p d)) (fun d => P1 (ix2 q d)) := by
  refine (acc8 P0 P1 p q).trans ?_
  unfold Cert.Sims.pooled8 Cert.Sims.cos8
  refine Finset.sum_congr rfl fun t _ => ?_
  refine Finset.fold_congr fun v _ => ?_
  refine Finset.sum_congr rfl fun c _ => ?_
  rw [pay4_at, pay5_at, mul_comm]

/-- The cut into 4 at entry (p, q). -/
theorem pooled4_eq (P0 P1 : Vec Ideal S256x1024 .f32) (p q : Fin 256) :
    addf (k0_pay11 (F := Ideal) P0 (k0_pay2 P1))
        (multiReduction .maximumf [1] S256x256 (k0_pay12 (F := Ideal) P0 (k0_pay2 P1)) 0xFF800000#32
          reduces_S256x4x256_S256x256 (.inl rfl) rfl) (ix2 p q)
      = Cert.Sims.pooled4 (fun d => P0 (ix2 p d)) (fun d => P1 (ix2 q d)) := by
  refine (acc4 P0 (k0_pay2 (F := Ideal) P1) p q).trans ?_
  unfold Cert.Sims.pooled4 Cert.Sims.cos4
  refine Finset.sum_congr rfl fun t _ => ?_
  refine Finset.fold_congr fun v _ => ?_
  refine Finset.sum_congr rfl fun c _ => ?_
  rw [pay9_at, pay10_at, mul_comm]

/-- THE STORED VALUE at entry (p, q): the similarity of image row `p` and caption row `q` of the two blocks. -/
theorem pay_eq (P0 P1 : Vec Ideal S256x1024 .f32) (p q : Fin 256) :
    k0_pay1 (F := Ideal)
        (k0_pay8 k0_pay3 (k0_pay4 P0) (k0_pay5 P1) (k0_pay6 P0 P1) (k0_pay7 P1) (constant S2048x256 .f32 0x00000000#32))
        (k0_pay11 P0 (k0_pay2 P1)) (k0_pay12 P0 (k0_pay2 P1)) (ix2 p q)
      = Cert.Sims.sim (fun d => P0 (ix2 p d)) (fun d => P1 (ix2 q d)) :=
  congrArg₂ (· + ·) (pooled8_eq P0 P1 p q) (pooled4_eq P0 P1 p q)

end Cert.Sims.Kern

end
-- ==== Proof.KBlocks.lean ====
/-
  From the blocks to the array.

  The kernel runs over an 8 x 8 grid. At point `t` it reads a block of 256 image rows and a block of 256 caption rows
  and writes a 256 x 256 block of the output: entry `(p, q)` of that block is the similarity of image row `p` of the
  first block and caption row `q` of the second. The output block's row block index is the image block's and its column
  block index is the caption block's, so the block written at `t` is block `t` of the one array
  `G` (images) (captions); the 64 blocks tile the 2048 x 2048 array, so after the run the array is `G`.
-/
import proofs.«113746_j31164282700672_2_alg».proof.Proof.Spec
import proofs.«113746_j31164282700672_2_alg».proof.Proof.Gen.KernelIdeal.Value
import proofs.«113746_j31164282700672_2_alg».proof.Proof.KPayload
import Idealize.ShloMosaic.Lib.ValueIdx
import Idealize.ShloMosaic.Lib.Pipeline.Value

noncomputable section

namespace Cert.Sims.Kern

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The zero offset of a whole-block access. -/
theorem zero_offset : (![0, 0] : Fin 2 → Nat) = fun _ => 0 := funext fun a => by fin_cases a <;> rfl

/-- The block indices at every grid point: the image window sits at the output's row block and the caption window at
    the output's column block, both at column block zero; the output's block indices are at most 7. -/
theorem block_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 7 :=
  (by decide +kernel : ∀ t : Fin grid0.N, _)

/-- Every output block `(q0, q1)` is some grid point's. -/
theorem block_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is block `t` of `G` of the two argument arrays. -/
theorem flushed_eq (c : Dev nD) (t : Fin cfg0.N) :
    (dats m 0 c).flushed 2 t
      = ((cfg0.win 2).blk t).view.read (Elt Ideal) (G (V m c main_arg0) (V m c main_arg1)) := by
  rw [Value.flushed2]
  unfold out0_2
  rw [View.canon_unit_zero zero_offset]
  simp only [View.ld_unit_zero (S := S256x1024) zero_offset]
  obtain ⟨e0, e1, e2, e3, e4, e5⟩ := block_indices t
  funext y
  obtain ⟨p, q, rfl⟩ : ∃ (p q : Fin 256), y = ix2 p q := ⟨y 0, y 1, eq_ix2 y⟩
  refine (pay_eq (iblk m c 0 t) (iblk m c 1 t) p q).trans ?_
  -- the image row read: row `p` of the image block is row `index * 256 + p` of the image array
  have hx : (fun d : Fin 1024 => iblk m c 0 t (ix2 p d))
      = fun d => V m c main_arg0 (ix2 ((((cfg0.win 2).blk t).view.emb (ix2 p q)) 0) d) := funext fun d => by
    show V m c main_arg0 (((cfg0.win 0).blk t).view.emb (ix2 p d)) = V m c main_arg0 _
    refine congrArg _ (funext fun a => Fin.ext ?_)
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 1024 + 1 * d.val = d.val
      omega
  -- the caption row read: row `q` of the caption block is row `index * 256 + q` of the caption array
  have hy : (fun d : Fin 1024 => iblk m c 1 t (ix2 q d))
      = fun d => V m c main_arg1 (ix2 ((((cfg0.win 2).blk t).view.emb (ix2 p q)) 1) d) := funext fun d => by
    show V m c main_arg1 (((cfg0.win 1).blk t).view.emb (ix2 q d)) = V m c main_arg1 _
    refine congrArg _ (funext fun a => Fin.ext ?_)
    match a with
    | ⟨0, _⟩ =>
      show win0_1.index t (0 : Fin 2) * 256 + 1 * q.val = win0_2.index t (1 : Fin 2) * 256 + 1 * q.val
      omega
    | ⟨1, _⟩ =>
      show win0_1.index t (1 : Fin 2) * 1024 + 1 * d.val = d.val
      omega
  exact congrArg₂ sim hx hy

/-- An index of the output array is in point `t`'s block iff each coordinate is in the block's range on its axis. -/
theorem mem_blk (t : Fin cfg0.N) (i : S2048x2048.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

/-- Every index `(a, b)` of the output array is in the block of the point whose block index is `(a / 256, b / 256)`. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := block_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- The output array after the run is `G` of the two argument arrays. -/
theorem final (c : Dev nD) :
    (dats m 0 c).arrAt 2 cfg0.N
      = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: the output array ends as `G` of the two argument arrays, which are unchanged. -/
theorem kernel_run :
    θ_run Cert.KernelIdeal.defs (onTc (τ := τ) (Cert.KernelIdeal.main (F := Ideal))) ⟨m, fun _ => 0, ρ⟩ fun r => ∀ c : Dev nD,
      r.2.mem ((c : Thread nD τ).loc main_v0)
        = Cert.Sims.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Sims.Kern

end
-- ==== Proof.lean ====
/-
  The kernel and its reference compute one function of the image rows and the caption rows, over the extended reals.

  For an image row and a caption row of 1024 numbers the similarity is defined in Proof/Spec.lean: the caption row is
  divided by its Euclidean norm plus a small constant; then, once with the rows cut into 8 blocks of 128 and once into 4
  blocks of 256, every block of the image row and of the normalised caption row is divided by its own norm plus the same
  constant, the block cosines are maximised over the image blocks and the maxima summed over the caption blocks; the two
  cuts' values are added. The result array holds, at (a, b), the similarity of image row `a` and caption row `b`.

  The reference computes exactly this, stage by stage (Proof/RefIsSpec.lean and the modules it imports). The kernel
  computes it tile by tile: each of the 8 × 8 grid points takes 256 image rows and 256 caption rows and writes the
  256 × 256 tile of similarities; an entry of a tile depends on one image row and one caption row only, the body adds
  the caption blocks' maxima one after another from zero where the reference sums them, and multiplies image factor
  by caption factor where the reference multiplies caption by image (Proof/KStep8.lean, KStep4.lean, KNorms.lean,
  KAcc.lean, KPayload.lean); the 64 tiles cover the result array (Proof/KBlocks.lean). Sums of extended reals may be
  regrouped and products commuted without any finiteness, so the inputs' finiteness is not used.

  The three frames are the generated ones (the reference's is its generated run with the result dropped); the
  idealization rewrote no operation, so there is nothing to preserve.
-/
import proofs.«113746_j31164282700672_2_alg».proof.Defs
import proofs.«113746_j31164282700672_2_alg».proof.Proof.Gen.Kernel
import proofs.«113746_j31164282700672_2_alg».proof.Proof.Gen.Kernel.Skeleton
import proofs.«113746_j31164282700672_2_alg».proof.Proof.Gen.Kernel.Launch
import proofs.«113746_j31164282700672_2_alg».proof.Proof.Gen.Kernel.Points
import proofs.«113746_j31164282700672_2_alg».proof.Proof.Gen.Kernel.Frame
import proofs.«113746_j31164282700672_2_alg».proof.Proof.Gen.KernelIdeal
import proofs.«113746_j31164282700672_2_alg».proof.Proof.Gen.KernelIdeal.Skeleton
import proofs.«113746_j31164282700672_2_alg».proof.Proof.Gen.KernelIdeal.Launch
import proofs.«113746_j31164282700672_2_alg».proof.Proof.Gen.KernelIdeal.Points
import proofs.«113746_j31164282700672_2_alg».proof.Proof.Gen.KernelIdeal.Frame
import proofs.«113746_j31164282700672_2_alg».proof.Proof.Gen.ReferenceIdeal
import proofs.«113746_j31164282700672_2_alg».proof.Proof.Gen.Pre_finite_inputs
import proofs.«113746_j31164282700672_2_alg».proof.Proof.Gen.KernelIdeal.Value
import proofs.«113746_j31164282700672_2_alg».proof.Proof.Gen.ReferenceIdeal.Run
import proofs.«113746_j31164282700672_2_alg».proof.Proof.Gen.ReferenceIdeal.Read
import proofs.«113746_j31164282700672_2_alg».proof.Proof.RefIsSpec
import proofs.«113746_j31164282700672_2_alg».proof.Proof.KBlocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two argument arrays both programs end with the result array at the similarity of
    every image row with every caption row. -/
theorem algebraic : Cert.algebraic_KernelIdeal_ReferenceIdeal := by
  intro m ρ m' ρ' _ hagree
  refine ⟨_, Cert.Sims.Kern.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.Sims.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
